-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 80
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x64, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x64, .f32⟩
  | .hbm, ⟨71, _⟩ => ⟨S1700000x1, .f32⟩
  | .hbm, ⟨72, _⟩ => ⟨S1700000x64, .f32⟩
  | .hbm, ⟨73, _⟩ => ⟨S1700000x64, .f32⟩
  | .hbm, ⟨74, _⟩ => ⟨S_, .f32⟩
  | .hbm, ⟨75, _⟩ => ⟨S100000x64, .f32⟩
  | .hbm, ⟨76, _⟩ => ⟨S1700000x1, .i32⟩
  | .hbm, ⟨77, _⟩ => ⟨S100000x64, .f32⟩
  | .hbm, ⟨78, _⟩ => ⟨S1x64, .f32⟩
  | .hbm, ⟨79, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x64, .f32⟩
  | .hbm, ⟨66, _⟩ => ⟨S_, .f32⟩
  | .hbm, ⟨67, _⟩ => ⟨S1700000, .f32⟩
  | .hbm, ⟨68, _⟩ => ⟨S_, .f32⟩
  | .hbm, ⟨69, _⟩ => ⟨S100000, .f32⟩
  | .hbm, ⟨70, _⟩ => ⟨S1700000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000, .f32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x64, .f32⟩
  | .hbm, ⟨104, _⟩ => ⟨S1700000x1, .f32⟩
  | .hbm, ⟨105, _⟩ => ⟨S1700000x64, .f32⟩
  | .hbm, ⟨106, _⟩ => ⟨S1700000x64, .f32⟩
  | .hbm, ⟨107, _⟩ => ⟨S_, .f32⟩
  | .hbm, ⟨108, _⟩ => ⟨S100000x64, .f32⟩
  | .hbm, ⟨109, _⟩ => ⟨S1700000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RunOut.lean ====
/-
  The idealized kernel program's run with its result named.

  The program is four kernel regions among three stretches of host operations.  Its buffer contents at the
  boundaries between these segments form a chain: the launch memory, then what a stretch of host operations leaves,
  then what a region's write-backs leave, and so on to the last region's exit.  Every weakly fair execution ends in a
  state whose unscoped buffers hold the last link of that chain; read at the result buffer this names the result, and
  read at an argument buffer it walks back to the launch memory.
-/
import proofs.«119958_j26061861552478_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_out : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Hand

end
-- ==== Proof.HostK.lean ====
/-
  The host side of the graph convolution, as functions of arrays, and the contents of the program's buffers at the
  boundaries between its host stretches and kernel regions.

  From the edge list `e : [2, E]` the program forms the source and destination columns with one self loop per node
  appended, the in-degree of every node as a scatter-add of ones, its inverse square root (the degree floored at 1e-12),
  and the edge weight `norm = dinv[src] · dinv[dst]` (an index below zero wrapped by the node count before each gather).
  An aggregation gathers the rows `h[src]`, scales each by its edge weight and scatter-adds them into the rows `dst` of
  a zero array.  These are carried here as whole-array functions and never opened.
-/
import proofs.«119958_j26061861552478_1_alg».proof.Proof.Gen.KernelIdeal.Frame
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

section Functions

variable {F : FTy → Type} [FloatOps F]

/-- The edges' source nodes followed by every node once (the self loops). -/
def srcOf (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The edges' destination nodes followed by every node once. -/
def dstOf (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A node number below zero counted from the end. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- The node numbers as a column of start indices. -/
def col (v : (⟨S1700000, .i32⟩ : BufTy).Contents (Elt F)) : (⟨S1700000x1, .i32⟩ : BufTy).Contents (Elt F) :=
  broadcastInDim S1700000x1 ![0] bcast_S1700000_S1700000x1_0 v

/-- The inverse square root of every node's in-degree, the degree floored at the word 1e-12. -/
def dinvOf (dst : (⟨S1700000, .i32⟩ : BufTy).Contents (Elt F)) : (⟨S100000, .f32⟩ : BufTy).Contents (Elt F) :=
  Host.rsqrt (maximumf (Host.scatterAdd scatter_S100000_S1700000x1_S1700000_n_0_0_1 (broadcastInDim S100000 ![] bcast_S_S100000 (constant S_ .f32 0x00000000#32)) (col dst) (broadcastInDim S1700000 ![] bcast_S_S1700000 (constant S_ .f32 0x3F800000#32))) (broadcastInDim S100000 ![] bcast_S_S100000 (constant S_ .f32 0x2B8CBCCC#32)))

/-- The weight of every edge: the product of its two end nodes' inverse square-root degrees. -/
def normOf (src dst : (⟨S1700000, .i32⟩ : BufTy).Contents (Elt F)) : (⟨S1700000, .f32⟩ : BufTy).Contents (Elt F) :=
  mulf (Host.gather gather_S100000_S1700000x1_S1700000_n_0_n_n_0_1_1 (dinvOf dst) (col (wrap src))) (Host.gather gather_S100000_S1700000x1_S1700000_n_0_n_n_0_1_1 (dinvOf dst) (col (wrap dst)))

/-- The aggregation of 128-wide rows: gather the source rows, scale by the edge weights, add into the destination rows. -/
def agg128 (h : (⟨S100000x128, .f32⟩ : BufTy).Contents (Elt F)) (src dst : (⟨S1700000, .i32⟩ : BufTy).Contents (Elt F))
    (norm : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (col dst) (mulf (Host.gather gather_S100000x128_S1700000x1_S1700000x128_1_0_n_n_0_1_1128 h (col (wrap src))) (broadcastInDim S1700000x128 ![0, 1] bcast_S1700000x1_S1700000x128_0_1 (broadcastInDim S1700000x1 ![0] bcast_S1700000_S1700000x1_0 norm)))

/-- The aggregation of 64-wide rows. -/
def agg64 (h : (⟨S100000x64, .f32⟩ : BufTy).Contents (Elt F)) (src dst : (⟨S1700000, .i32⟩ : BufTy).Contents (Elt F))
    (norm : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (col dst) (mulf (Host.gather gather_S100000x64_S1700000x1_S1700000x64_1_0_n_n_0_1_164 h (col (wrap src))) (broadcastInDim S1700000x64 ![0, 1] bcast_S1700000x1_S1700000x64_0_1 (broadcastInDim S1700000x1 ![0] bcast_S1700000_S1700000x1_0 norm)))

end Functions

variable (m : (ℓ : Loc nD τ sig) → Buf (Elt Ideal) ℓ) (ρ : Dev nD → PrngReg)

/-! ## After the first stretch of host operations -/

theorem W1_src (c : Dev nD) : W1 m ρ c (Proc.devRef .tc main_v3) = srcOf (m ((c : Thread nD τ).loc main_arg1)) := by
  show StableHlo.after hostOps0 (W0 m ρ c) (Proc.devRef .tc main_v3) = _
  after_results
  rfl

theorem W1_dst (c : Dev nD) : W1 m ρ c (Proc.devRef .tc main_v6) = dstOf (m ((c : Thread nD τ).loc main_arg1)) := by
  show StableHlo.after hostOps0 (W0 m ρ c) (Proc.devRef .tc main_v6) = _
  after_results
  rfl

set_option maxHeartbeats 4000000 in
theorem W1_norm (c : Dev nD) : W1 m ρ c (Proc.devRef .tc main_v28)
    = normOf (srcOf (m ((c : Thread nD τ).loc main_arg1))) (dstOf (m ((c : Thread nD τ).loc main_arg1))) := by
  show StableHlo.after hostOps0 (W0 m ρ c) (Proc.devRef .tc main_v28) = _
  after_results_simp
  rfl

end Cert.KernelIdeal.Hand

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.Net.lean ====
/-
  The two-layer graph convolution as one function of the six argument arrays.

  With `src`, `dst` the edge endpoints (self loops appended) and `norm` the edge weights, a layer is
  `aggregate(h · W) + b`: project the rows by the weight matrix, gather the source rows, scale by the edge weights,
  add them into the destination rows, then add the bias to every row.  The first layer is followed by the rectifier.
  The projections and the bias rows are read index by index; the aggregation is carried as a whole-array function.
-/
import proofs.«119958_j26061861552478_1_alg».proof.Proof.HostK
import proofs.«119958_j26061861552478_1_alg».proof.Proof.LibDense
import proofs.«119958_j26061861552478_1_alg».proof.Proof.LibBiasRows

noncomputable section

namespace Cert.KernelIdeal.Hand

open Cert.KernelIdeal Idealize.ShloMosaic

/-- The network's result from the node features `x0`, the edge list `x1`, and the two layers' weights and biases. -/
def net (x0 : S100000x128.Idx → EReal) (x1 : (⟨S2x1600000, .i32⟩ : BufTy).Contents (Elt Ideal)) (x2 : S128x128.Idx → EReal)
    (x3 : S128.Idx → EReal) (x4 : S128x64.Idx → EReal) (x5 : S64.Idx → EReal) : S100000x64.Idx → EReal :=
  LibBiasRows.addRow (n := 100000) (d := 64)
    (agg64 (F := Ideal)
      (LibDense.prod (n := 100000) (K := 128) (d := 64)
        (LibBiasRows.reluRow (n := 100000) (d := 128)
          (agg128 (F := Ideal) (LibDense.prod (n := 100000) (K := 128) (d := 128) x0 x2) (srcOf x1) (dstOf x1) (normOf (srcOf x1) (dstOf x1)))
          (shapeCast S1x128 x3 Facts₀.shapeCasts_S128_S1x128))
        x4)
      (srcOf x1) (dstOf x1) (normOf (srcOf x1) (dstOf x1)))
    (shapeCast S1x64 x5 Facts₀.shapeCasts_S64_S1x64)

end Cert.KernelIdeal.Hand

end
-- ==== Proof.Region0.lean ====
/-
  The first projection, read off the pipeline: the product of the node features and the first weight matrix.

  The region runs over 20 grid points.  At point t the first window holds rows 5000·t … 5000·t + 4999 of the left
  operand, the second window the whole right operand, and the body stores their matrix product (the operands' change
  of float format is the identity on the extended reals) into the output window, which is written back to the same rows
  of the result.  Entry (r, j) of a product reads row r of the left operand only, so each written block is the same rows
  of the whole product; the 20 blocks tile the result's rows.
-/
import proofs.«119958_j26061861552478_1_alg».proof.Proof.Gen.KernelIdeal.Frame
import proofs.«119958_j26061861552478_1_alg».proof.Proof.LibDense
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at an entry: the row-by-column sum of its two loaded blocks. -/
theorem pay0_apply (x0 : Vec Ideal S5000x128 .f32) (x1 : Vec Ideal S128x128 .f32) (j : S5000x128.Idx) :
    k0_pay1 x0 x1 j = LibDense.prod (n := 5000) (K := 128) (d := 128) x0 x1 j := by
  unfold k0_pay1
  exact LibDense.matmul_plain (M := 5000) (K := 128) (N := 128) (φ₁ := .bf16) (φ₂ := .bf16) _ _ j

/-- Where each window's block sits at grid point t: the row windows at block row t, the weight window at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000·t … of the array. -/
theorem iblk0_0_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg0 : S100000x128.Idx → EReal) k := by
  obtain ⟨e0, e1, -⟩ := idx0 t
  unfold iblk0
  rw [View.read_apply]
  show V c main_arg0 _ = V c main_arg0 _
  refine congrArg _ (funext fun a => Fin.ext ?_)
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The right operand's block at every point is the whole array. -/
theorem iblk0_1_apply (c : Dev nD) (t : Fin cfg0.N) (x : S128x128.Idx) :
    (iblk0 V c 1 t : Vec Ideal S128x128 .f32) x = (V c main_arg2 : S128x128.Idx → EReal) x := by
  obtain ⟨-, -, e0, e1, -⟩ := idx0 t
  unfold iblk0
  rw [View.read_apply]
  show V c main_arg2 _ = V c main_arg2 _
  refine congrArg _ (funext fun a => Fin.ext ?_)
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- What point t writes back is block t of the whole product. -/
theorem flushed0_eq (c : Dev nD) (t : Fin cfg0.N) :
    (dat0 V c).flushed 2 t = ((cfg0.win 2).blk t).view.read (Elt Ideal)
      (LibDense.prod (n := 100000) (K := 128) (d := 128) (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e0, e1⟩ := idx0 t
  funext j
  rw [View.read_apply]
  refine (pay0_apply _ _ j).trans ?_
  unfold LibDense.prod
  refine Finset.sum_congr rfl fun k _ => ?_
  refine congrArg₂ (· * ·) ?_ ?_
  · refine iblk0_0_apply V c t _ _ ?_ ?_
    · show (((cfg0.win 2).blk t).view.emb j 0).val = 5000 * t.val + (j 0).val
      show win0_2.index t 0 * 5000 + 1 * (j 0).val = _
      rw [e0]; omega
    · rfl
  · refine (iblk0_1_apply V c t _).trans (congrArg _ (funext fun a => Fin.ext ?_))
    match a with
    | ⟨0, _⟩ => rfl
    | ⟨1, _⟩ => show (j 1).val = win0_2.index t 1 * 128 + 1 * (j 1).val; rw [e1]; omega

/-- An index of the result lies in point t's block iff each coordinate lies in the block's range. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- After the region the result array holds the whole product of the arrays the region found. -/
theorem arr0 (c : Dev nD) : (dat0 V c).arrAt 2 cfg0.N
    = LibDense.prod (n := 100000) (K := 128) (d := 128) (V c main_arg0) (V c main_arg2) :=
  (dat0 V c).arrAt_eq_of_cover 2 _ (fun t _ => flushed0_eq V c t) fun i => by
    have h0 : (i 0).val < 100000 := (i 0).isLt
    have h1 : (i 1).val < 128 := (i 1).isLt
    have hN : cfg0.N = 20 := N_0
    refine ⟨⟨(i 0).val / 5000, by rw [hN]; omega⟩, flush0_2 _, ?_⟩
    rw [mem_blk0]
    obtain ⟨-, -, -, -, e0, e1⟩ := idx0 ⟨(i 0).val / 5000, by rw [hN]; omega⟩
    intro a
    match a with
    | ⟨0, _⟩ =>
      show win0_2.index _ 0 * 5000 ≤ (i 0).val ∧ (i 0).val < win0_2.index _ 0 * 5000 + 5000
      rw [e0]; show (i 0).val / 5000 * 5000 ≤ (i 0).val ∧ (i 0).val < (i 0).val / 5000 * 5000 + 5000; omega
    | ⟨1, _⟩ =>
      show win0_2.index _ 1 * 128 ≤ (i 1).val ∧ (i 1).val < win0_2.index _ 1 * 128 + 128
      rw [e1]; omega

end Cert.KernelIdeal.Hand

end
-- ==== Proof.Region1.lean ====
/-
  The first layer's bias and rectifier, read off the pipeline.

  The region runs over 20 grid points.  At point t the first window holds rows 5000·t … 5000·t + 4999 of the
  aggregated features [100000, 128], the second window the whole bias row [1, 128], and the body stores the block with
  the row added to each of its rows, rectified, into the output window, written back to the same rows of the result.  An
  entry reads the aggregate at that entry and the row at its column, so each written block is the same rows of the whole
  array's layer; the 20 blocks tile the result's rows.
-/
import proofs.«119958_j26061861552478_1_alg».proof.Proof.Gen.KernelIdeal.Frame
import proofs.«119958_j26061861552478_1_alg».proof.Proof.LibBiasRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The body's stored value at an entry: its block's entry plus the row's entry of that column, rectified. -/
theorem pay1_apply (x0 : Vec Ideal S5000x128 .f32) (x1 : Vec Ideal S1x128 .f32) (j : S5000x128.Idx) :
    k1_pay1 x0 x1 j = LibBiasRows.reluRow (n := 5000) (d := 128) x0 x1 j := by
  unfold k1_pay1
  exact LibBiasRows.vec_reluRow (n := 5000) (d := 128) x0 x1 _ _ _ j

/-- Where each window's block sits at grid point t: the row windows at block row t, the bias window at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The aggregate's block at point t is rows 5000·t … of the array. -/
theorem iblk1_0_apply (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v42 : S100000x128.Idx → EReal) k := by
  obtain ⟨e0, e1, -⟩ := idx1 t
  unfold iblk1
  rw [View.read_apply]
  show V c main_v42 _ = V c main_v42 _
  refine congrArg _ (funext fun a => Fin.ext ?_)
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The bias row's block at every point is the whole row. -/
theorem iblk1_1_apply (c : Dev nD) (t : Fin cfg1.N) (x : S1x128.Idx) :
    (iblk1 V c 1 t : Vec Ideal S1x128 .f32) x = (V c main_v43 : S1x128.Idx → EReal) x := by
  obtain ⟨-, -, e0, e1, -⟩ := idx1 t
  unfold iblk1
  rw [View.read_apply]
  show V c main_v43 _ = V c main_v43 _
  refine congrArg _ (funext fun a => Fin.ext ?_)
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- What point t writes back is block t of the whole array's layer. -/
theorem flushed1_eq (c : Dev nD) (t : Fin cfg1.N) :
    (dat1 V c).flushed 2 t = ((cfg1.win 2).blk t).view.read (Elt Ideal)
      (LibBiasRows.reluRow (n := 100000) (d := 128) (V c main_v42) (V c main_v43)) := by
  show (cfg1.win 2).cut (grid1.coords t) ((dat1 V c).after 2 t) = _
  rw [after1_2]
  unfold out1_2
  rw [View.canon_unit_zero zero_offsets1]
  simp only [View.ld_unit_zero (S := S5000x128) zero_offsets1, View.ld_unit_zero (S := S1x128) zero_offsets1]
  obtain ⟨-, -, -, -, e0, e1⟩ := idx1 t
  funext j
  rw [View.read_apply]
  refine (pay1_apply _ _ j).trans ?_
  refine LibBiasRows.reluRow_congr _ _ _ _ j _ ?_ ?_
  · refine iblk1_0_apply V c t _ _ ?_ ?_
    · show (((cfg1.win 2).blk t).view.emb j 0).val = 5000 * t.val + (j 0).val
      show win1_2.index t 0 * 5000 + 1 * (j 0).val = _
      rw [e0]; omega
    · show (((cfg1.win 2).blk t).view.emb j 1).val = (j 1).val
      show win1_2.index t 1 * 128 + 1 * (j 1).val = _
      rw [e1]; omega
  · refine (iblk1_1_apply V c t _).trans (congrArg _ (funext fun a => Fin.ext ?_))
    match a with
    | ⟨0, _⟩ => rfl
    | ⟨1, _⟩ => show (j 1).val = win1_2.index t 1 * 128 + 1 * (j 1).val; rw [e1]; omega

/-- An index of the result lies in point t's block iff each coordinate lies in the block's range. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- After the region the result array holds the layer of the arrays the region found. -/
theorem arr1 (c : Dev nD) : (dat1 V c).arrAt 2 cfg1.N
    = LibBiasRows.reluRow (n := 100000) (d := 128) (V c main_v42) (V c main_v43) :=
  (dat1 V c).arrAt_eq_of_cover 2 _ (fun t _ => flushed1_eq V c t) fun i => by
    have h0 : (i 0).val < 100000 := (i 0).isLt
    have h1 : (i 1).val < 128 := (i 1).isLt
    have hN : cfg1.N = 20 := N_1
    refine ⟨⟨(i 0).val / 5000, by rw [hN]; omega⟩, flush1_2 _, ?_⟩
    rw [mem_blk1]
    obtain ⟨-, -, -, -, e0, e1⟩ := idx1 ⟨(i 0).val / 5000, by rw [hN]; omega⟩
    intro a
    match a with
    | ⟨0, _⟩ =>
      show win1_2.index _ 0 * 5000 ≤ (i 0).val ∧ (i 0).val < win1_2.index _ 0 * 5000 + 5000
      rw [e0]; show (i 0).val / 5000 * 5000 ≤ (i 0).val ∧ (i 0).val < (i 0).val / 5000 * 5000 + 5000; omega
    | ⟨1, _⟩ =>
      show win1_2.index _ 1 * 128 ≤ (i 1).val ∧ (i 1).val < win1_2.index _ 1 * 128 + 128
      rw [e1]; omega

end Cert.KernelIdeal.Hand

end
-- ==== Proof.Region2.lean ====
/-
  The second projection, read off the pipeline: the product of the hidden features and the second weight matrix.

  As for the first projection: 20 grid points, at point t the first window holds rows 5000·t … 5000·t + 4999 of the
  left operand [100000, 128], the second window the whole right operand [128, 64], and the body stores their matrix
  product into the output window, written back to the same rows of the result [100000, 64].  Each written block is the
  same rows of the whole product, and the 20 blocks tile the result's rows.
-/
import proofs.«119958_j26061861552478_1_alg».proof.Proof.Gen.KernelIdeal.Frame
import proofs.«119958_j26061861552478_1_alg».proof.Proof.LibDense
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The body's stored value at an entry: the row-by-column sum of its two loaded blocks. -/
theorem pay2_apply (x0 : Vec Ideal S5000x128 .f32) (x1 : Vec Ideal S128x64 .f32) (j : S5000x64.Idx) :
    k2_pay1 x0 x1 j = LibDense.prod (n := 5000) (K := 128) (d := 64) x0 x1 j := by
  unfold k2_pay1
  refine (LibDense.matmul_plain (M := 5000) (K := 128) (N := 64) (φ₁ := .bf16) (φ₂ := .bf16) _ _ j).trans ?_
  show LibDense.prod (n := 5000) (K := 128) (d := 64) (shapeCast S5000x128 x0 shapeCasts_S5000x128_S5000x128) x1 j = _
  rw [shapeCast_self]

/-- Where each window's block sits at grid point t: the row windows at block row t, the weight window at the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 5000·t … of the array. -/
theorem iblk2_0_apply (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v44 : S100000x128.Idx → EReal) k := by
  obtain ⟨e0, e1, -⟩ := idx2 t
  unfold iblk2
  rw [View.read_apply]
  show V c main_v44 _ = V c main_v44 _
  refine congrArg _ (funext fun a => Fin.ext ?_)
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The right operand's block at every point is the whole array. -/
theorem iblk2_1_apply (c : Dev nD) (t : Fin cfg2.N) (x : S128x64.Idx) :
    (iblk2 V c 1 t : Vec Ideal S128x64 .f32) x = (V c main_arg4 : S128x64.Idx → EReal) x := by
  obtain ⟨-, -, e0, e1, -⟩ := idx2 t
  unfold iblk2
  rw [View.read_apply]
  show V c main_arg4 _ = V c main_arg4 _
  refine congrArg _ (funext fun a => Fin.ext ?_)
  match a with
  | ⟨0, _⟩ => show win2_1.index t 0 * 128 + 1 * (x 0).val = (x 0).val; rw [e0]; omega
  | ⟨1, _⟩ => show win2_1.index t 1 * 64 + 1 * (x 1).val = (x 1).val; rw [e1]; omega

/-- What point t writes back is block t of the whole product. -/
theorem flushed2_eq (c : Dev nD) (t : Fin cfg2.N) :
    (dat2 V c).flushed 2 t = ((cfg2.win 2).blk t).view.read (Elt Ideal)
      (LibDense.prod (n := 100000) (K := 128) (d := 64) (V c main_v44) (V c main_arg4)) := by
  show (cfg2.win 2).cut (grid2.coords t) ((dat2 V c).after 2 t) = _
  rw [after2_2]
  unfold out2_2
  rw [View.canon_unit_zero zero_offsets2]
  simp only [View.ld_unit_zero (S := S5000x128) zero_offsets2, View.ld_unit_zero (S := S128x64) zero_offsets2]
  obtain ⟨-, -, -, -, e0, e1⟩ := idx2 t
  funext j
  rw [View.read_apply]
  refine (pay2_apply _ _ j).trans ?_
  unfold LibDense.prod
  refine Finset.sum_congr rfl fun k _ => ?_
  refine congrArg₂ (· * ·) ?_ ?_
  · refine iblk2_0_apply V c t _ _ ?_ ?_
    · show (((cfg2.win 2).blk t).view.emb j 0).val = 5000 * t.val + (j 0).val
      show win2_2.index t 0 * 5000 + 1 * (j 0).val = _
      rw [e0]; omega
    · rfl
  · refine (iblk2_1_apply V c t _).trans (congrArg _ (funext fun a => Fin.ext ?_))
    match a with
    | ⟨0, _⟩ => rfl
    | ⟨1, _⟩ => show (j 1).val = win2_2.index t 1 * 64 + 1 * (j 1).val; rw [e1]; omega

/-- An index of the result lies in point t's block iff each coordinate lies in the block's range. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- After the region the result array holds the whole product of the arrays the region found. -/
theorem arr2 (c : Dev nD) : (dat2 V c).arrAt 2 cfg2.N
    = LibDense.prod (n := 100000) (K := 128) (d := 64) (V c main_v44) (V c main_arg4) :=
  (dat2 V c).arrAt_eq_of_cover 2 _ (fun t _ => flushed2_eq V c t) fun i => by
    have h0 : (i 0).val < 100000 := (i 0).isLt
    have h1 : (i 1).val < 64 := (i 1).isLt
    have hN : cfg2.N = 20 := N_2
    refine ⟨⟨(i 0).val / 5000, by rw [hN]; omega⟩, flush2_2 _, ?_⟩
    rw [mem_blk2]
    obtain ⟨-, -, -, -, e0, e1⟩ := idx2 ⟨(i 0).val / 5000, by rw [hN]; omega⟩
    intro a
    match a with
    | ⟨0, _⟩ =>
      show win2_2.index _ 0 * 5000 ≤ (i 0).val ∧ (i 0).val < win2_2.index _ 0 * 5000 + 5000
      rw [e0]; show (i 0).val / 5000 * 5000 ≤ (i 0).val ∧ (i 0).val < (i 0).val / 5000 * 5000 + 5000; omega
    | ⟨1, _⟩ =>
      show win2_2.index _ 1 * 64 ≤ (i 1).val ∧ (i 1).val < win2_2.index _ 1 * 64 + 64
      rw [e1]; omega

end Cert.KernelIdeal.Hand

end
-- ==== Proof.Region3.lean ====
/-
  The second layer's bias, read off the pipeline.

  The region runs over 20 grid points.  At point t the first window holds rows 5000·t … 5000·t + 4999 of the
  aggregated features [100000, 64], the second window the whole bias row [1, 64], and the body stores the block with
  the row added to each of its rows into the output window, written back to the same rows of the result.  An
  entry reads the aggregate at that entry and the row at its column, so each written block is the same rows of the whole
  array's layer; the 20 blocks tile the result's rows.
-/
import proofs.«119958_j26061861552478_1_alg».proof.Proof.Gen.KernelIdeal.Frame
import proofs.«119958_j26061861552478_1_alg».proof.Proof.LibBiasRows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets3 : (![0, 0] : Fin 2 → Nat) = fun _ => 0 := funext fun a => by fin_cases a <;> rfl

/-- The body's stored value at an entry: its block's entry plus the row's entry of that column. -/
theorem pay3_apply (x0 : Vec Ideal S5000x64 .f32) (x1 : Vec Ideal S1x64 .f32) (j : S5000x64.Idx) :
    k3_pay1 x0 x1 j = LibBiasRows.addRow (n := 5000) (d := 64) x0 x1 j := by
  unfold k3_pay1
  exact LibBiasRows.vec_addRow (n := 5000) (d := 64) x0 x1 _ _ _ j

/-- Where each window's block sits at grid point t: the row windows at block row t, the bias window at the origin. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The aggregate's block at point t is rows 5000·t … of the array. -/
theorem iblk3_0_apply (c : Dev nD) (t : Fin cfg3.N) (x : S5000x64.Idx) (k : S100000x64.Idx)
    (hk0 : (k 0).val = 5000 * t.val + (x 0).val) (hk1 : (k 1).val = (x 1).val) :
    (iblk3 V c 0 t : Vec Ideal S5000x64 .f32) x = (V c main_v58 : S100000x64.Idx → EReal) k := by
  obtain ⟨e0, e1, -⟩ := idx3 t
  unfold iblk3
  rw [View.read_apply]
  show V c main_v58 _ = V c main_v58 _
  refine congrArg _ (funext fun a => Fin.ext ?_)
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

/-- The bias row's block at every point is the whole row. -/
theorem iblk3_1_apply (c : Dev nD) (t : Fin cfg3.N) (x : S1x64.Idx) :
    (iblk3 V c 1 t : Vec Ideal S1x64 .f32) x = (V c main_v59 : S1x64.Idx → EReal) x := by
  obtain ⟨-, -, e0, e1, -⟩ := idx3 t
  unfold iblk3
  rw [View.read_apply]
  show V c main_v59 _ = V c main_v59 _
  refine congrArg _ (funext fun a => Fin.ext ?_)
  match a with
  | ⟨0, _⟩ => show win3_1.index t 0 * 1 + 1 * (x 0).val = (x 0).val; rw [e0]; omega
  | ⟨1, _⟩ => show win3_1.index t 1 * 64 + 1 * (x 1).val = (x 1).val; rw [e1]; omega

/-- What point t writes back is block t of the whole array's layer. -/
theorem flushed3_eq (c : Dev nD) (t : Fin cfg3.N) :
    (dat3 V c).flushed 2 t = ((cfg3.win 2).blk t).view.read (Elt Ideal)
      (LibBiasRows.addRow (n := 100000) (d := 64) (V c main_v58) (V c main_v59)) := by
  show (cfg3.win 2).cut (grid3.coords t) ((dat3 V c).after 2 t) = _
  rw [after3_2]
  unfold out3_2
  rw [View.canon_unit_zero zero_offsets3]
  simp only [View.ld_unit_zero (S := S5000x64) zero_offsets3, View.ld_unit_zero (S := S1x64) zero_offsets3]
  obtain ⟨-, -, -, -, e0, e1⟩ := idx3 t
  funext j
  rw [View.read_apply]
  refine (pay3_apply _ _ j).trans ?_
  refine LibBiasRows.addRow_congr _ _ _ _ j _ ?_ ?_
  · refine iblk3_0_apply V c t _ _ ?_ ?_
    · show (((cfg3.win 2).blk t).view.emb j 0).val = 5000 * t.val + (j 0).val
      show win3_2.index t 0 * 5000 + 1 * (j 0).val = _
      rw [e0]; omega
    · show (((cfg3.win 2).blk t).view.emb j 1).val = (j 1).val
      show win3_2.index t 1 * 64 + 1 * (j 1).val = _
      rw [e1]; omega
  · refine (iblk3_1_apply V c t _).trans (congrArg _ (funext fun a => Fin.ext ?_))
    match a with
    | ⟨0, _⟩ => rfl
    | ⟨1, _⟩ => show (j 1).val = win3_2.index t 1 * 64 + 1 * (j 1).val; rw [e1]; omega

/-- An index of the result lies in point t's block iff each coordinate lies in the block's range. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v60).slice (win3_2.rect t)).set ↔ _
  rw [View.set_slice_whole, Rect.mem_set_unit]
  exact Iff.rfl

/-- After the region the result array holds the layer of the arrays the region found. -/
theorem arr3 (c : Dev nD) : (dat3 V c).arrAt 2 cfg3.N
    = LibBiasRows.addRow (n := 100000) (d := 64) (V c main_v58) (V c main_v59) :=
  (dat3 V c).arrAt_eq_of_cover 2 _ (fun t _ => flushed3_eq V c t) fun i => by
    have h0 : (i 0).val < 100000 := (i 0).isLt
    have h1 : (i 1).val < 64 := (i 1).isLt
    have hN : cfg3.N = 20 := N_3
    refine ⟨⟨(i 0).val / 5000, by rw [hN]; omega⟩, flush3_2 _, ?_⟩
    rw [mem_blk3]
    obtain ⟨-, -, -, -, e0, e1⟩ := idx3 ⟨(i 0).val / 5000, by rw [hN]; omega⟩
    intro a
    match a with
    | ⟨0, _⟩ =>
      show win3_2.index _ 0 * 5000 ≤ (i 0).val ∧ (i 0).val < win3_2.index _ 0 * 5000 + 5000
      rw [e0]; show (i 0).val / 5000 * 5000 ≤ (i 0).val ∧ (i 0).val < (i 0).val / 5000 * 5000 + 5000; omega
    | ⟨1, _⟩ =>
      show win3_2.index _ 1 * 64 ≤ (i 1).val ∧ (i 1).val < win3_2.index _ 1 * 64 + 64
      rw [e1]; omega

end Cert.KernelIdeal.Hand

end
-- ==== Proof.Boundaries.lean ====
/-
  The idealized kernel program's result as the network function of its arguments.

  The chain of buffer contents is followed from the launch to the last region's exit: a host stretch leaves each buffer it
  writes at its operation's value of the buffers before it and every other buffer alone; a region leaves its output array at
  what its pipeline wrote (read in the four region modules) and every other buffer alone.
-/
import proofs.«119958_j26061861552478_1_alg».proof.Proof.Net
import proofs.«119958_j26061861552478_1_alg».proof.Proof.Region0
import proofs.«119958_j26061861552478_1_alg».proof.Proof.Region1
import proofs.«119958_j26061861552478_1_alg».proof.Proof.Region2
import proofs.«119958_j26061861552478_1_alg».proof.Proof.Region3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first host stretch writes no argument -/

theorem W1_arg0 (c : Dev nD) : W1 m ρ c (Proc.devRef .tc main_arg0) = (m ((c : Thread nD τ).loc main_arg0)) := by
  show StableHlo.after hostOps0 (W0 m ρ c) (Proc.devRef .tc main_arg0) = _
  after_results
theorem W1_arg2 (c : Dev nD) : W1 m ρ c (Proc.devRef .tc main_arg2) = (m ((c : Thread nD τ).loc main_arg2)) := by
  show StableHlo.after hostOps0 (W0 m ρ c) (Proc.devRef .tc main_arg2) = _
  after_results
theorem W1_arg3 (c : Dev nD) : W1 m ρ c (Proc.devRef .tc main_arg3) = (m ((c : Thread nD τ).loc main_arg3)) := by
  show StableHlo.after hostOps0 (W0 m ρ c) (Proc.devRef .tc main_arg3) = _
  after_results
theorem W1_arg4 (c : Dev nD) : W1 m ρ c (Proc.devRef .tc main_arg4) = (m ((c : Thread nD τ).loc main_arg4)) := by
  show StableHlo.after hostOps0 (W0 m ρ c) (Proc.devRef .tc main_arg4) = _
  after_results
theorem W1_arg5 (c : Dev nD) : W1 m ρ c (Proc.devRef .tc main_arg5) = (m ((c : Thread nD τ).loc main_arg5)) := by
  show StableHlo.after hostOps0 (W0 m ρ c) (Proc.devRef .tc main_arg5) = _
  after_results

/-! ## The first projection -/

theorem W2_proj (c : Dev nD) : W2 m ρ c (Proc.devRef .tc main_v29)
    = LibDense.prod (n := 100000) (K := 128) (d := 128) (m ((c : Thread nD τ).loc main_arg0)) (m ((c : Thread nD τ).loc main_arg2)) := by
  refine (W2_arr m ρ c 2).trans ?_
  rw [arr0 (V1 m ρ) c]
  show LibDense.prod (n := 100000) (K := 128) (d := 128) (W1 m ρ c (Proc.devRef .tc main_arg0)) (W1 m ρ c (Proc.devRef .tc main_arg2)) = _
  rw [W1_arg0, W1_arg2]

/-! ## The first aggregation and the first bias row -/

set_option maxHeartbeats 4000000 in
theorem W3_agg (c : Dev nD) : W3 m ρ c (Proc.devRef .tc main_v42)
    = agg128 (F := Ideal) (LibDense.prod (n := 100000) (K := 128) (d := 128) (m ((c : Thread nD τ).loc main_arg0)) (m ((c : Thread nD τ).loc main_arg2)))
        (srcOf (m ((c : Thread nD τ).loc main_arg1))) (dstOf (m ((c : Thread nD τ).loc main_arg1))) (normOf (srcOf (m ((c : Thread nD τ).loc main_arg1))) (dstOf (m ((c : Thread nD τ).loc main_arg1)))) := by
  show StableHlo.after hostOps1 (W2 m ρ c) (Proc.devRef .tc main_v42) = _
  after_results_simp
  rw [W2_of_ne m ρ c main_v3 (by decide), W2_of_ne m ρ c main_v6 (by decide), W2_of_ne m ρ c main_v28 (by decide),
    W1_src, W1_dst, W1_norm, W2_proj]
  rfl

theorem W3_row (c : Dev nD) : W3 m ρ c (Proc.devRef .tc main_v43)
    = shapeCast S1x128 (m ((c : Thread nD τ).loc main_arg3)) Facts₀.shapeCasts_S128_S1x128 := by
  show StableHlo.after hostOps1 (W2 m ρ c) (Proc.devRef .tc main_v43) = _
  after_results
  rw [W2_of_ne m ρ c main_arg3 (by decide), W1_arg3]
  rfl

/-! ## The first layer's output -/

theorem W4_hidden (c : Dev nD) : W4 m ρ c (Proc.devRef .tc main_v44)
    = LibBiasRows.reluRow (n := 100000) (d := 128)
        (agg128 (F := Ideal) (LibDense.prod (n := 100000) (K := 128) (d := 128) (m ((c : Thread nD τ).loc main_arg0)) (m ((c : Thread nD τ).loc main_arg2)))
          (srcOf (m ((c : Thread nD τ).loc main_arg1))) (dstOf (m ((c : Thread nD τ).loc main_arg1))) (normOf (srcOf (m ((c : Thread nD τ).loc main_arg1))) (dstOf (m ((c : Thread nD τ).loc main_arg1)))))
        (shapeCast S1x128 (m ((c : Thread nD τ).loc main_arg3)) Facts₀.shapeCasts_S128_S1x128) := by
  refine (W4_arr m ρ c 2).trans ?_
  rw [arr1 (V3 m ρ) c]
  show LibBiasRows.reluRow (n := 100000) (d := 128) (W3 m ρ c (Proc.devRef .tc main_v42)) (W3 m ρ c (Proc.devRef .tc main_v43)) = _
  rw [W3_agg, W3_row]

theorem W4_arg4 (c : Dev nD) : W4 m ρ c (Proc.devRef .tc main_arg4) = (m ((c : Thread nD τ).loc main_arg4)) := by
  rw [W4_of_ne m ρ c main_arg4 (by decide)]
  show StableHlo.after hostOps1 (W2 m ρ c) (Proc.devRef .tc main_arg4) = _
  after_results
  rw [W2_of_ne m ρ c main_arg4 (by decide), W1_arg4]

/-! ## The second projection -/

theorem W5_proj (c : Dev nD) : W5 m ρ c (Proc.devRef .tc main_v45)
    = LibDense.prod (n := 100000) (K := 128) (d := 64)
        (LibBiasRows.reluRow (n := 100000) (d := 128)
          (agg128 (F := Ideal) (LibDense.prod (n := 100000) (K := 128) (d := 128) (m ((c : Thread nD τ).loc main_arg0)) (m ((c : Thread nD τ).loc main_arg2)))
            (srcOf (m ((c : Thread nD τ).loc main_arg1))) (dstOf (m ((c : Thread nD τ).loc main_arg1))) (normOf (srcOf (m ((c : Thread nD τ).loc main_arg1))) (dstOf (m ((c : Thread nD τ).loc main_arg1)))))
          (shapeCast S1x128 (m ((c : Thread nD τ).loc main_arg3)) Facts₀.shapeCasts_S128_S1x128))
        (m ((c : Thread nD τ).loc main_arg4)) := by
  refine (W5_arr m ρ c 2).trans ?_
  rw [arr2 (V4 m ρ) c]
  show LibDense.prod (n := 100000) (K := 128) (d := 64) (W4 m ρ c (Proc.devRef .tc main_v44)) (W4 m ρ c (Proc.devRef .tc main_arg4)) = _
  rw [W4_hidden, W4_arg4]

/-! ## What the second and third regions and the second host stretch leave alone -/

theorem W5_src (c : Dev nD) : W5 m ρ c (Proc.devRef .tc main_v3) = srcOf (m ((c : Thread nD τ).loc main_arg1)) := by
  rw [W5_of_ne m ρ c main_v3 (by decide), W4_of_ne m ρ c main_v3 (by decide)]
  show StableHlo.after hostOps1 (W2 m ρ c) (Proc.devRef .tc main_v3) = _
  after_results
  rw [W2_of_ne m ρ c main_v3 (by decide), W1_src]

theorem W5_dst (c : Dev nD) : W5 m ρ c (Proc.devRef .tc main_v6) = dstOf (m ((c : Thread nD τ).loc main_arg1)) := by
  rw [W5_of_ne m ρ c main_v6 (by decide), W4_of_ne m ρ c main_v6 (by decide)]
  show StableHlo.after hostOps1 (W2 m ρ c) (Proc.devRef .tc main_v6) = _
  after_results
  rw [W2_of_ne m ρ c main_v6 (by decide), W1_dst]

theorem W5_norm (c : Dev nD) : W5 m ρ c (Proc.devRef .tc main_v28)
    = normOf (srcOf (m ((c : Thread nD τ).loc main_arg1))) (dstOf (m ((c : Thread nD τ).loc main_arg1))) := by
  rw [W5_of_ne m ρ c main_v28 (by decide), W4_of_ne m ρ c main_v28 (by decide)]
  show StableHlo.after hostOps1 (W2 m ρ c) (Proc.devRef .tc main_v28) = _
  after_results
  rw [W2_of_ne m ρ c main_v28 (by decide), W1_norm]

theorem W5_arg5 (c : Dev nD) : W5 m ρ c (Proc.devRef .tc main_arg5) = (m ((c : Thread nD τ).loc main_arg5)) := by
  rw [W5_of_ne m ρ c main_arg5 (by decide), W4_of_ne m ρ c main_arg5 (by decide)]
  show StableHlo.after hostOps1 (W2 m ρ c) (Proc.devRef .tc main_arg5) = _
  after_results
  rw [W2_of_ne m ρ c main_arg5 (by decide), W1_arg5]

/-! ## The second aggregation, the second bias row, and the result -/

set_option maxHeartbeats 4000000 in
theorem W6_agg (c : Dev nD) : W6 m ρ c (Proc.devRef .tc main_v58)
    = agg64 (F := Ideal) (W5 m ρ c (Proc.devRef .tc main_v45))
        (srcOf (m ((c : Thread nD τ).loc main_arg1))) (dstOf (m ((c : Thread nD τ).loc main_arg1))) (normOf (srcOf (m ((c : Thread nD τ).loc main_arg1))) (dstOf (m ((c : Thread nD τ).loc main_arg1)))) := by
  show StableHlo.after hostOps3 (W5 m ρ c) (Proc.devRef .tc main_v58) = _
  after_results_simp
  rw [W5_src, W5_dst, W5_norm]
  rfl

theorem W6_row (c : Dev nD) : W6 m ρ c (Proc.devRef .tc main_v59)
    = shapeCast S1x64 (m ((c : Thread nD τ).loc main_arg5)) Facts₀.shapeCasts_S64_S1x64 := by
  show StableHlo.after hostOps3 (W5 m ρ c) (Proc.devRef .tc main_v59) = _
  after_results
  rw [W5_arg5]
  rfl

/-- The result buffer at the last boundary is the network function of the launch contents of the six arguments. -/
theorem W7_out (c : Dev nD) : W7 m ρ c (Proc.devRef .tc main_v60)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  rw [arr3 (V6 m ρ) c]
  show LibBiasRows.addRow (n := 100000) (d := 64) (W6 m ρ c (Proc.devRef .tc main_v58)) (W6 m ρ c (Proc.devRef .tc main_v59)) = _
  rw [W6_agg, W6_row, W5_proj]
  rfl

end Cert.KernelIdeal.Hand

end
-- ==== Proof.RefNet.lean ====
/-
  The reference's result as the same network function of its arguments.

  The reference spells each projection as a host dot_general (the row-by-column sum on the extended reals), each
  bias as a vector broadcast to a row and then down the rows, the rectifier as a maximum against a broadcast zero, and
  it recomputes the degrees and edge weights in its second layer from the same edge list, operation for operation as in
  its first.  Its edge bookkeeping and its two aggregations are, term for term, the functions the kernel program's host
  side applies, so they are compared as whole terms and never opened.
-/
import proofs.«119958_j26061861552478_1_alg».proof.Proof.Gen.ReferenceIdeal.Read
import proofs.«119958_j26061861552478_1_alg».proof.Proof.Net

set_option maxRecDepth 16384

noncomputable section

namespace Cert.ReferenceIdeal.Hand

open Cert.ReferenceIdeal Cert.ReferenceIdeal.Read Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-! ## The edge bookkeeping and the aggregations, term for term -/

theorem src_eq : val_main_v3 (F := Ideal) x1 = Cert.KernelIdeal.Hand.srcOf x1 := rfl
theorem dst_eq : val_main_v6 (F := Ideal) x1 = Cert.KernelIdeal.Hand.dstOf x1 := rfl
theorem dinv_eq : val_main_v14 (F := Ideal) x1 = Cert.KernelIdeal.Hand.dinvOf (Cert.KernelIdeal.Hand.dstOf x1) := rfl
theorem dinv_eq' : val_main_v54 (F := Ideal) x1 = Cert.KernelIdeal.Hand.dinvOf (Cert.KernelIdeal.Hand.dstOf x1) := rfl
theorem norm_eq : val_main_v29 (F := Ideal) x1 = Cert.KernelIdeal.Hand.normOf (Cert.KernelIdeal.Hand.srcOf x1) (Cert.KernelIdeal.Hand.dstOf x1) := rfl
theorem norm_eq' : val_main_v69 (F := Ideal) x1 = Cert.KernelIdeal.Hand.normOf (Cert.KernelIdeal.Hand.srcOf x1) (Cert.KernelIdeal.Hand.dstOf x1) := rfl

theorem agg1_eq : val_main_v42 (F := Ideal) x0 x1 x2
    = Cert.KernelIdeal.Hand.agg128 (F := Ideal) (val_main_v7 (F := Ideal) x0 x2) (Cert.KernelIdeal.Hand.srcOf x1) (Cert.KernelIdeal.Hand.dstOf x1) (Cert.KernelIdeal.Hand.normOf (Cert.KernelIdeal.Hand.srcOf x1) (Cert.KernelIdeal.Hand.dstOf x1)) := rfl

theorem agg2_eq : val_main_v82 (F := Ideal) x0 x1 x2 x3 x4
    = Cert.KernelIdeal.Hand.agg64 (F := Ideal) (val_main_v47 (F := Ideal) x0 x1 x2 x3 x4) (Cert.KernelIdeal.Hand.srcOf x1) (Cert.KernelIdeal.Hand.dstOf x1) (Cert.KernelIdeal.Hand.normOf (Cert.KernelIdeal.Hand.srcOf x1) (Cert.KernelIdeal.Hand.dstOf x1)) := rfl

/-! ## The projections and the bias rows, index by index -/

theorem proj1_eq : val_main_v7 (F := Ideal) x0 x2 = Cert.LibDense.prod (n := 100000) (K := 128) (d := 128) x0 x2 := by
  funext i
  rw [val_main_v7_apply]
  unfold Cert.LibDense.prod
  refine Finset.sum_congr rfl fun k _ => congrArg₂ (· * ·) (congrArg x0 (funext fun a => ?_)) (congrArg x2 (funext fun a => ?_))
  · match a with
    | ⟨0, _⟩ => rfl
    | ⟨1, _⟩ => rfl
  · match a with
    | ⟨0, _⟩ => rfl
    | ⟨1, _⟩ => rfl

theorem proj2_eq : val_main_v47 (F := Ideal) x0 x1 x2 x3 x4
    = Cert.LibDense.prod (n := 100000) (K := 128) (d := 64) (val_main_v46 (F := Ideal) x0 x1 x2 x3) x4 := by
  funext i
  rw [val_main_v47_apply]
  unfold Cert.LibDense.prod
  refine Finset.sum_congr rfl fun k _ => congrArg₂ (· * ·) (congrArg _ (funext fun a => ?_)) (congrArg x4 (funext fun a => ?_))
  · match a with
    | ⟨0, _⟩ => rfl
    | ⟨1, _⟩ => rfl
  · match a with
    | ⟨0, _⟩ => rfl
    | ⟨1, _⟩ => rfl

theorem relu_eq : val_main_v46 (F := Ideal) x0 x1 x2 x3
    = Cert.LibBiasRows.reluRow (n := 100000) (d := 128) (val_main_v42 (F := Ideal) x0 x1 x2)
        (shapeCast Cert.KernelIdeal.S1x128 x3 Cert.KernelIdeal.Facts₀.shapeCasts_S128_S1x128) := by
  funext i
  rw [val_main_v46_apply, val_main_v45_apply, val_main_v44_apply, val_main_v43_apply, val_main_call0_v0_apply, val_main_call0_cst_apply]
  unfold Cert.LibBiasRows.reluRow Cert.LibBiasRows.addRow
  have e : shapeCast Cert.KernelIdeal.S1x128 x3 Cert.KernelIdeal.Facts₀.shapeCasts_S128_S1x128 (ix2 ⟨0, Nat.one_pos⟩ (i 1)) = x3 (ix1 (i 1)) :=
    Cert.LibBiasRows.row_of_vector (d := 128) x3 _ (i 1)
  rw [e]
  show max (_ + x3 _) _ = max (_ + x3 _) _
  refine congrArg₂ max (congrArg (_ + ·) (congrArg x3 (funext fun a => ?_))) rfl
  match a with
  | ⟨0, _⟩ => rfl

theorem out_eq : val_main_v85 (F := Ideal) x0 x1 x2 x3 x4 x5
    = Cert.LibBiasRows.addRow (n := 100000) (d := 64) (val_main_v82 (F := Ideal) x0 x1 x2 x3 x4)
        (shapeCast Cert.KernelIdeal.S1x64 x5 Cert.KernelIdeal.Facts₀.shapeCasts_S64_S1x64) := by
  funext i
  rw [val_main_v85_apply, val_main_v84_apply, val_main_v83_apply]
  unfold Cert.LibBiasRows.addRow
  have e : shapeCast Cert.KernelIdeal.S1x64 x5 Cert.KernelIdeal.Facts₀.shapeCasts_S64_S1x64 (ix2 ⟨0, Nat.one_pos⟩ (i 1)) = x5 (ix1 (i 1)) :=
    Cert.LibBiasRows.row_of_vector (d := 64) x5 _ (i 1)
  rw [e]
  show _ + x5 _ = _ + x5 _
  refine congrArg (_ + ·) (congrArg x5 (funext fun a => ?_))
  match a with
  | ⟨0, _⟩ => rfl

/-- The reference's result is the network function of its arguments. -/
theorem ref_net : val_main_v85 (F := Ideal) x0 x1 x2 x3 x4 x5 = Cert.KernelIdeal.Hand.net x0 x1 x2 x3 x4 x5 := by
  rw [out_eq, agg2_eq, proj2_eq, relu_eq, agg1_eq, proj1_eq]
  rfl

end Cert.ReferenceIdeal.Hand

end
-- ==== Proof.lean ====
/-
  A two-layer graph convolution (symmetric inverse-square-root degree weights, self loops, bias, rectifier after the first
  layer) computed with four vector-unit kernels — two matrix products over row blocks and two bias passes over row
  blocks — around host gathers and scatter-adds, against the same network written with host operations only.

  On the extended reals both programs compute one function of the six arguments: each projection is the row-by-column
  sum (the kernels' change of float format is the identity, the row blocks tile the rows), each bias pass adds the bias
  entry of the column (and takes the maximum with zero in the first layer), and the degree, edge-weight, gather and
  scatter-add operations are the same operations on both sides.  No rearrangement of a sum is involved, so finiteness
  of the inputs is never used.  The statement lists no rewrite of the idealization to account for: that conjunct is `True`.
-/
import proofs.«119958_j26061861552478_1_alg».proof.Defs
import proofs.«119958_j26061861552478_1_alg».proof.Proof.Gen.Kernel
import proofs.«119958_j26061861552478_1_alg».proof.Proof.Gen.Kernel.Skeleton
import proofs.«119958_j26061861552478_1_alg».proof.Proof.Gen.Kernel.Launch
import proofs.«119958_j26061861552478_1_alg».proof.Proof.Gen.Kernel.Points
import proofs.«119958_j26061861552478_1_alg».proof.Proof.Gen.Kernel.Frame
import proofs.«119958_j26061861552478_1_alg».proof.Proof.Gen.KernelIdeal
import proofs.«119958_j26061861552478_1_alg».proof.Proof.Gen.KernelIdeal.Skeleton
import proofs.«119958_j26061861552478_1_alg».proof.Proof.Gen.KernelIdeal.Launch
import proofs.«119958_j26061861552478_1_alg».proof.Proof.Gen.KernelIdeal.Points
import proofs.«119958_j26061861552478_1_alg».proof.Proof.Gen.KernelIdeal.Frame
import proofs.«119958_j26061861552478_1_alg».proof.Proof.Gen.ReferenceIdeal
import proofs.«119958_j26061861552478_1_alg».proof.Proof.Gen.ReferenceIdeal.Run
import proofs.«119958_j26061861552478_1_alg».proof.Proof.Gen.ReferenceIdeal.Read
import proofs.«119958_j26061861552478_1_alg».proof.Proof.Gen.Pre_finite_inputs
import proofs.«119958_j26061861552478_1_alg».proof.Proof.RunOut
import proofs.«119958_j26061861552478_1_alg».proof.Proof.Boundaries
import proofs.«119958_j26061861552478_1_alg».proof.Proof.RefNet
import Idealize.ShloMosaic.Adequacy
import Idealize.ShloMosaic.Init

noncomputable section

namespace Cert.Proof

open Idealize.ShloMosaic Idealize.SL.Sem

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network function of those arguments. -/
theorem algebraic : Cert.algebraic_KernelIdeal_ReferenceIdeal := by
  intro m ρ m' ρ' _ hagree
  refine ⟨fun c => Cert.KernelIdeal.Hand.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.W7_out m ρ c), (h c).2⟩) (Cert.KernelIdeal.Hand.run_out m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v85_eq, Cert.ReferenceIdeal.Hand.ref_net,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
